-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S128x128 .f32) (main_arg7 : FVec F S128x128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128x128 .f32) (main_arg8 : FVec F S128x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S2 : Shape := ⟨1, ![2]⟩
abbrev S100000x1 : Shape := ⟨2, ![100000, 1]⟩

abbrev nBuf : Space → Nat
  | .hbm => 59
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x128, .f32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S_, .f32⟩
  | .hbm, ⟨45, _⟩ => ⟨S128x128, .f32⟩
  | .hbm, ⟨46, _⟩ => ⟨S_, .i32⟩
  | .hbm, ⟨47, _⟩ => ⟨S1, .i32⟩
  | .hbm, ⟨48, _⟩ => ⟨S128x128, .f32⟩
  | .hbm, ⟨49, _⟩ => ⟨S_, .f32⟩
  | .hbm, ⟨50, _⟩ => ⟨S1x128, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S1x128, .f32⟩
  | .hbm, ⟨57, _⟩ => ⟨S100000x128, .f32⟩
  | .hbm, ⟨58, _⟩ => ⟨S100000x1, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  shapeCasts_S2000x128_S2000x128 : S2000x128.ShapeCasts S2000x128
  shapeCasts_S128x128_S128x128 : S128x128.ShapeCasts S128x128
  slices_S100000x128_S100000x1_0_0 : S100000x128.Slices ![0, 0] S100000x1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S128x128_S1_S128x1_01_n_1_0_wf : ScatterDims.WF S128x128 S1 S128x1 [0, 1] [] [1] 0
  scatter_S1x128_S2_S1_0_0_01_0_wf : ScatterDims.WF S1x128 S2 S1 [0] [0] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def scatter_S1x128_S2_S1_0_0_01_0 : ScatterDims S1x128 S2 S1 where
  updateWindowDims := [0]
  insertedWindowDims := [0]
  scatterDimsToOperandDims := [0, 1]
  indexVectorDim := 0
  wf := scatter_S1x128_S2_S1_0_0_01_0_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S_, .f32⟩
  | .hbm, ⟨15, _⟩ => ⟨S100000x128, .f32⟩
  | .hbm, ⟨16, _⟩ => ⟨S100000x128, .f32⟩
  | .hbm, ⟨17, _⟩ => ⟨S1600000x1, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1600000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x1, .f32⟩
  | .hbm, ⟨56, _⟩ => ⟨S1x1, .f32⟩
  | .hbm, ⟨57, _⟩ => ⟨S100000x1, .f32⟩
  | .hbm, ⟨58, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_cst : Ref sig .tc := ⟨.hbm, 52, rfl⟩
abbrev main_call1_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The kernel program's run with its result named.

  The program is five stretches in order: one host operation, the first layer's region, the two propagation hops
  and the padding of the output projection on the host, the last layer's region, and a final slice. The contents of
  the buffers at each boundary are a fold from the launch memory (`W0 … W5` of the generated frame). Every weakly
  fair execution terminates with each buffer the program holds at its `W5` contents; read at the result buffer
  that is the program's value, and read at the argument buffers it is the launch memory.
-/
import proofs.«168921_j16844861734926_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v37) = W5 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v37 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Run

end
-- ==== Proof.Matmul.lean ====
/-
  A block's matrix product at an index: entry `(p, q)` of a `[2000, 128]` block times a `[128, 128]` weight,
  accumulated into zeros, is `Σ_k a[p,k] · b[k,q]` over the extended reals. The product contracts one axis,
  so its contraction index is a single coordinate `k : Fin 128`.
-/
import proofs.«168921_j16844861734926_1_alg».proof.Proof.Gen.KernelIdeal
import Idealize.ShloMosaic.PureOps.Ideal.Laws
import Idealize.ShloMosaic.Lib.ValueIdx

noncomputable section

namespace Cert.KernelIdeal.BlockProduct

open Cert.KernelIdeal Cert.KernelIdeal.Gen Idealize.ShloMosaic Idealize.ShloMosaic.ValueIdx

/-- The left operand's row is the result's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The right operand's column is the result's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry `(p, q)` of the block product into zeros is the sum over the contracted coordinate. -/
theorem apply {φ₁ φ₂ : FTy} (a : FVec Ideal S2000x128 φ₁) (b : FVec Ideal S128x128 φ₂) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun ax => Fin.ext (by
      match ax with
      | ⟨0, _⟩ => exact lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun ax => Fin.ext (by
      match ax with
      | ⟨0, _⟩ => exact (dot_S2000x128_S128x128_S2000x128_1_0_0_1_n_n.rhsIdx_val_of_single rfl _ _).trans hk
      | ⟨1, _⟩ => exact rhs_col _ _)
  rw [el, er]

end Cert.KernelIdeal.BlockProduct

end
-- ==== Proof.Spec.lean ====
/-
  The two dense layers of the network, as functions of whole arrays over the extended reals.

  `hiddenLayer X W b` is the first layer: row `r` of `X` times `W`, plus the bias row, clipped below at zero.
  `outputLayer A B W₁ W₂ Wp bp` is the last: the two propagated feature arrays `A`, `B` each times its
  weight, added, clipped below at zero, then times the output projection `Wp`, plus the bias row `bp`.
  Between them sit two propagation hops that both programs spell identically; they are not opened here.
  The zero of the clipping is kept as the float word both programs print.
-/
import Idealize.ShloMosaic.PureOps.Ideal
import Idealize.ShloMosaic.Lib.ValueIdx

noncomputable section

namespace Cert.Layers

open Idealize.ShloMosaic Idealize.ShloMosaic.ValueIdx

/-- Node features: 100000 nodes, 128 features each. -/
abbrev Feat : Shape := ⟨2, ![100000, 128]⟩
/-- A square weight. -/
abbrev Wt : Shape := ⟨2, ![128, 128]⟩
/-- A bias row. -/
abbrev Row : Shape := ⟨2, ![1, 128]⟩

/-- The float word of zero, read at the extended reals. -/
abbrev zeroWord : EReal := Ideal.ofBits .f32 0x00000000#32

/-- The first layer: `max (Σ_k X[r,k] · W[k,c] + b[0,c]) 0`. -/
def hiddenLayer (X : Feat.Idx → EReal) (W : Wt.Idx → EReal) (b : Row.Idx → EReal) : Feat.Idx → EReal :=
  fun i => max ((∑ k : Fin 128, X (ix2 (i 0) k) * W (ix2 k (i 1))) + b (ix2 (0 : Fin 1) (i 1))) zeroWord

/-- The last layer: `Σ_k max (Σ_l A[r,l] · W₁[l,k] + Σ_l B[r,l] · W₂[l,k]) 0 · Wp[k,c] + bp[0,c]`. -/
def outputLayer (A B : Feat.Idx → EReal) (W₁ W₂ Wp : Wt.Idx → EReal) (bp : Row.Idx → EReal) : Feat.Idx → EReal :=
  fun i => (∑ k : Fin 128,
      max ((∑ l : Fin 128, A (ix2 (i 0) l) * W₁ (ix2 l k)) + (∑ l : Fin 128, B (ix2 (i 0) l) * W₂ (ix2 l k))) zeroWord
        * Wp (ix2 k (i 1)))
    + bp (ix2 (0 : Fin 1) (i 1))

end Cert.Layers

end
-- ==== Proof.Body.lean ====
/-
  What each kernel body stores, entry by entry, as a formula of the blocks it loads (over the extended reals, where
  a change of float format is the identity).

  First layer: entry `(p, q)` of the stored block is `max (Σ_k x[p,k] · w[k,q] + b[0,q]) 0`.
  Last layer: entry `(p, q)` is `Σ_k max (Σ_l a[p,l] · w₁[l,k] + Σ_l a'[p,l] · w₂[l,k]) 0 · wp[k,q] + bp[0,q]`.
-/
import proofs.«168921_j16844861734926_1_alg».proof.Proof.Gen.KernelIdeal.Skeleton
import proofs.«168921_j16844861734926_1_alg».proof.Proof.Matmul
import proofs.«168921_j16844861734926_1_alg».proof.Proof.Spec
import Idealize.ShloMosaic.Lib.Pipeline.Value
import Idealize.ShloMosaic.Lib.ValueLayout

noncomputable section

namespace Cert.KernelIdeal.Bodies

open Cert.KernelIdeal Cert.KernelIdeal.Gen Idealize.ShloMosaic Idealize.ShloMosaic.ValueIdx Cert.Layers

/-- The first layer's stored block at `(p, q)`. -/
theorem first_apply (x0 : Vec Ideal S2000x128 .f32) (x1 : Vec Ideal S128x128 .f32) (x2 : Vec Ideal S1x128 .f32)
    (p : Fin 2000) (q : Fin 128) :
    k0_pay1 (F := Ideal) x0 x1 x2 (ix2 p q)
      = max ((∑ k : Fin 128, x0 (ix2 p k) * x1 (ix2 k q)) + x2 (ix2 (0 : Fin 1) q)) zeroWord := by
  unfold k0_pay1
  simp only [maximumf_apply, addf_apply, broadcast_apply]
  rw [BlockProduct.apply, broadcastTo_1b_ab_apply, shapeCast_self]
  rfl

/-- The last layer's stored block at `(p, q)`. -/
theorem last_apply (x0 x1 : Vec Ideal S2000x128 .f32) (x2 x3 x4 : Vec Ideal S128x128 .f32) (x5 : Vec Ideal S1x128 .f32)
    (p : Fin 2000) (q : Fin 128) :
    k1_pay1 (F := Ideal) x0 x1 x2 x3 x4 x5 (ix2 p q)
      = (∑ k : Fin 128,
          max ((∑ l : Fin 128, x0 (ix2 p l) * x2 (ix2 l k)) + (∑ l : Fin 128, x1 (ix2 p l) * x3 (ix2 l k))) zeroWord
            * x4 (ix2 k q))
        + x5 (ix2 (0 : Fin 1) q) := by
  unfold k1_pay1
  simp only [addf_apply, shapeCast_self]
  rw [BlockProduct.apply, broadcastTo_1b_ab_apply]
  refine congrArg (· + x5 (ix2 (0 : Fin 1) q)) (Finset.sum_congr rfl fun k _ => ?_)
  simp only [truncf_apply, maximumf_apply, addf_apply, broadcast_apply]
  rw [BlockProduct.apply, BlockProduct.apply]
  rfl

end Cert.KernelIdeal.Bodies

end
-- ==== Proof.FirstLayer.lean ====
/-
  The first layer's region, from blocks to the whole array.

  The region runs on 50 grid points. Point `t` loads rows `2000 t … 2000 t + 1999` of the features, the whole
  weight and the whole bias row, and writes back the same rows of the output. An entry of a stored block depends on
  its own row of the features only, so what point `t` writes back is block `t` of `hiddenLayer` of the arrays as the
  region finds them; the fifty blocks tile the output, so the output array ends at `hiddenLayer` of those arrays.
-/
import proofs.«168921_j16844861734926_1_alg».proof.Proof.Gen.KernelIdeal.Frame
import proofs.«168921_j16844861734926_1_alg».proof.Proof.Body
import proofs.«168921_j16844861734926_1_alg».proof.Proof.Spec
import Idealize.ShloMosaic.Lib.Pipeline.Value

set_option maxRecDepth 16384

noncomputable section

namespace Cert.KernelIdeal.FirstLayer

open Cert.KernelIdeal Cert.KernelIdeal.Gen Idealize.ShloMosaic Idealize.ShloMosaic.TcCoe Idealize.SL.Sem
open Idealize.ShloMosaic.ValueIdx Cert.Layers
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature and output windows move down one block per point, the
    weight and the bias row stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A stored block's entry `(p, q)` is `hiddenLayer` at `(r, q)` when the loaded feature block's row `p` is the
    array's row `r` and the other two loads are the whole weight and bias row. -/
theorem block_eq (x0 : Vec Ideal S2000x128 .f32) (x1 : Vec Ideal S128x128 .f32) (x2 : Vec Ideal S1x128 .f32)
    (X : Feat.Idx → EReal) (W : Wt.Idx → EReal) (b : Row.Idx → EReal) (p : Fin 2000) (q : Fin 128) (r : Fin 100000)
    (h0 : ∀ k : Fin 128, x0 (ix2 p k) = X (ix2 r k)) (h1 : x1 = W) (h2 : x2 = b) :
    k0_pay1 (F := Ideal) x0 x1 x2 (ix2 p q) = hiddenLayer X W b (ix2 r q) := by
  rw [Bodies.first_apply]
  subst h1 h2
  unfold hiddenLayer
  simp only [h0]

/-- What point `t` writes back is block `t` of `hiddenLayer` of the arrays as the region finds them. -/
theorem flushed_eq (c : Dev nD) (t : Fin cfg0.N) :
    (dat0 V c).flushed 3 t
      = ((cfg0.win 3).blk t).view.read (Elt Ideal) (hiddenLayer (V c main_arg0) (V c main_arg4) (V c main_v0)) := by
  show (cfg0.win 3).cut (grid0.coords t) ((dat0 V c).after 3 t) = _
  rw [after0_3]
  unfold out0_3
  rw [View.canon_unit_zero origin]
  simp only [View.ld_unit_zero (S := S2000x128) origin, View.ld_unit_zero (S := S128x128) origin,
    View.ld_unit_zero (S := S1x128) origin]
  obtain ⟨e00, e01, e10, e11, e20, e21, e30, e31⟩ := idx_facts t
  have hN : grid0.N = 50 := N_0
  have ht : t.val < 50 := hN ▸ t.isLt
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hq : q.val < 128 := q.isLt
  have hr : t.val * 2000 + p.val < 100000 := by omega
  have hemb : ((cfg0.win 3).blk t).view.emb (ix2 p q) = (ix2 (⟨t.val * 2000 + p.val, hr⟩ : Fin 100000) q : Feat.Idx) := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
    = hiddenLayer (V c main_arg0) (V c main_arg4) (V c main_v0) (((cfg0.win 3).blk t).view.emb (ix2 p q))
  rw [hemb]
  refine block_eq (iblk0 V c 0 t) (iblk0 V c 1 t) (iblk0 V c 2 t) (V c main_arg0) (V c main_arg4) (V c main_v0)
    p q ⟨t.val * 2000 + p.val, hr⟩ (fun k => ?_) ?_ ?_
  · show V c main_arg0 (((cfg0.win 0).blk t).view.emb (ix2 p k)) = V c main_arg0 (ix2 (⟨t.val * 2000 + p.val, hr⟩ : Fin 100000) k)
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · funext y
    show V c main_arg4 (((cfg0.win 1).blk t).view.emb y) = V c main_arg4 y
    refine congrArg (V c main_arg4) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega

/-- An index of the output array is in point `t`'s block iff each coordinate is in the block's range. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v1).slice (win0_3.rect t)).set ↔ _
  rw [View.set_slice_whole, Rect.mem_set_unit]
  exact Iff.rfl

/-- Row `r` of the output is in the block of point `r / 2000`: the blocks tile the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 50 := N_0
  have hlt : (i 0).val / 2000 < cfg0.N := by show _ < grid0.N; rw [hN]; omega
  obtain ⟨e00, e01, e10, e11, e20, e21, e30, e31⟩ := idx_facts ⟨(i 0).val / 2000, hlt⟩
  refine ⟨⟨(i 0).val / 2000, hlt⟩, flush0_3 _, ?_⟩
  rw [mem_blk]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, hlt⟩ (1 : Fin 2) * 128 ≤ (i 1).val
      ∧ (i 1).val < win0_3.index ⟨(i 0).val / 2000, hlt⟩ (1 : Fin 2) * 128 + 128
    rw [e31]
    omega

/-- The region's output array ends at `hiddenLayer` of the arrays as the region finds them. -/
theorem final (c : Dev nD) :
    (dat0 V c).arrAt 3 cfg0.N = hiddenLayer (V c main_arg0) (V c main_arg4) (V c main_v0) :=
  (dat0 V c).arrAt_eq_of_cover 3 (hiddenLayer (V c main_arg0) (V c main_arg4) (V c main_v0))
    (fun t _ => flushed_eq V c t) cover

end Cert.KernelIdeal.FirstLayer

end
-- ==== Proof.LastLayer.lean ====
/-
  The last layer's region, from blocks to the whole array.

  The region runs on 50 grid points. Point `t` loads rows `2000 t … 2000 t + 1999` of the two propagated feature
  arrays, the two whole weights, the whole padded output projection and its padded bias row, and writes back the same
  rows of the output. An entry of a stored block depends on its own row of the two feature arrays only, so what point
  `t` writes back is block `t` of `outputLayer` of the arrays as the region finds them; the fifty blocks tile the
  output, so the output array ends at `outputLayer` of those arrays.
-/
import proofs.«168921_j16844861734926_1_alg».proof.Proof.Gen.KernelIdeal.Frame
import proofs.«168921_j16844861734926_1_alg».proof.Proof.Body
import proofs.«168921_j16844861734926_1_alg».proof.Proof.Spec
import Idealize.ShloMosaic.Lib.Pipeline.Value

set_option maxRecDepth 16384

noncomputable section

namespace Cert.KernelIdeal.LastLayer

open Cert.KernelIdeal Cert.KernelIdeal.Gen Idealize.ShloMosaic Idealize.ShloMosaic.TcCoe Idealize.SL.Sem
open Idealize.ShloMosaic.ValueIdx Cert.Layers
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two feature windows and the output window move down one block per
    point, the weights, the projection and the bias row stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A stored block's entry `(p, q)` is `outputLayer` at `(r, q)` when row `p` of each loaded feature block is
    row `r` of its array and the other four loads are the whole arrays. -/
theorem block_eq (x0 x1 : Vec Ideal S2000x128 .f32) (x2 x3 x4 : Vec Ideal S128x128 .f32) (x5 : Vec Ideal S1x128 .f32)
    (A B : Feat.Idx → EReal) (W₁ W₂ Wp : Wt.Idx → EReal) (bp : Row.Idx → EReal) (p : Fin 2000) (q : Fin 128) (r : Fin 100000)
    (h0 : ∀ l : Fin 128, x0 (ix2 p l) = A (ix2 r l)) (h1 : ∀ l : Fin 128, x1 (ix2 p l) = B (ix2 r l))
    (h2 : x2 = W₁) (h3 : x3 = W₂) (h4 : x4 = Wp) (h5 : x5 = bp) :
    k1_pay1 (F := Ideal) x0 x1 x2 x3 x4 x5 (ix2 p q) = outputLayer A B W₁ W₂ Wp bp (ix2 r q) := by
  rw [Bodies.last_apply]
  subst h2 h3 h4 h5
  unfold outputLayer
  simp only [h0, h1]

/-- What point `t` writes back is block `t` of `outputLayer` of the arrays as the region finds them. -/
theorem flushed_eq (c : Dev nD) (t : Fin cfg1.N) :
    (dat1 V c).flushed 6 t
      = ((cfg1.win 6).blk t).view.read (Elt Ideal)
          (outputLayer (V c main_v14) (V c main_v27) (V c main_arg6) (V c main_arg7) (V c main_v30) (V c main_v35)) := by
  show (cfg1.win 6).cut (grid1.coords t) ((dat1 V c).after 6 t) = _
  rw [after1_6]
  unfold out1_6
  rw [View.canon_unit_zero origin]
  simp only [View.ld_unit_zero (S := S2000x128) origin, View.ld_unit_zero (S := S128x128) origin,
    View.ld_unit_zero (S := S1x128) origin]
  obtain ⟨e00, e01, e10, e11, e20, e21, e30, e31, e40, e41, e50, e51, e60, e61⟩ := idx_facts t
  have hN : grid1.N = 50 := N_1
  have ht : t.val < 50 := hN ▸ t.isLt
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hq : q.val < 128 := q.isLt
  have hr : t.val * 2000 + p.val < 100000 := by omega
  have hemb : ((cfg1.win 6).blk t).view.emb (ix2 p q) = (ix2 (⟨t.val * 2000 + p.val, hr⟩ : Fin 100000) q : Feat.Idx) := by
    funext a; apply Fin.ext
    match a with
    | ⟨0, _⟩ => show win1_6.index t (0 : Fin 2) * 2000 + 1 * p.val = t.val * 2000 + p.val; omega
    | ⟨1, _⟩ => show win1_6.index t (1 : Fin 2) * 128 + 1 * q.val = q.val; omega
  show k1_pay1 (F := Ideal) (iblk1 V c 0 t) (iblk1 V c 1 t) (iblk1 V c 2 t) (iblk1 V c 3 t) (iblk1 V c 4 t) (iblk1 V c 5 t) (ix2 p q)
    = outputLayer (V c main_v14) (V c main_v27) (V c main_arg6) (V c main_arg7) (V c main_v30) (V c main_v35)
        (((cfg1.win 6).blk t).view.emb (ix2 p q))
  rw [hemb]
  refine block_eq (iblk1 V c 0 t) (iblk1 V c 1 t) (iblk1 V c 2 t) (iblk1 V c 3 t) (iblk1 V c 4 t) (iblk1 V c 5 t)
    (V c main_v14) (V c main_v27) (V c main_arg6) (V c main_arg7) (V c main_v30) (V c main_v35)
    p q ⟨t.val * 2000 + p.val, hr⟩ (fun l => ?_) (fun l => ?_) ?_ ?_ ?_ ?_
  · show V c main_v14 (((cfg1.win 0).blk t).view.emb (ix2 p l)) = V c main_v14 (ix2 (⟨t.val * 2000 + p.val, hr⟩ : Fin 100000) l)
    refine congrArg (V c main_v14) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * l.val = l.val; omega
  · show V c main_v27 (((cfg1.win 1).blk t).view.emb (ix2 p l)) = V c main_v27 (ix2 (⟨t.val * 2000 + p.val, hr⟩ : Fin 100000) l)
    refine congrArg (V c main_v27) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * l.val = l.val; omega
  · funext y
    show V c main_arg6 (((cfg1.win 2).blk t).view.emb y) = V c main_arg6 y
    refine congrArg (V c main_arg6) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg7 (((cfg1.win 3).blk t).view.emb y) = V c main_arg7 y
    refine congrArg (V c main_arg7) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v30 (((cfg1.win 4).blk t).view.emb y) = V c main_v30 y
    refine congrArg (V c main_v30) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v35 (((cfg1.win 5).blk t).view.emb y) = V c main_v35 y
    refine congrArg (V c main_v35) (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega

/-- An index of the output array is in point `t`'s block iff each coordinate is in the block's range. -/
theorem mem_blk (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v36).slice (win1_6.rect t)).set ↔ _
  rw [View.set_slice_whole, Rect.mem_set_unit]
  exact Iff.rfl

/-- Row `r` of the output is in the block of point `r / 2000`: the blocks tile the array. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 50 := N_1
  have hlt : (i 0).val / 2000 < cfg1.N := by show _ < grid1.N; rw [hN]; omega
  obtain ⟨e00, e01, e10, e11, e20, e21, e30, e31, e40, e41, e50, e51, e60, e61⟩ := idx_facts ⟨(i 0).val / 2000, hlt⟩
  refine ⟨⟨(i 0).val / 2000, hlt⟩, flush1_6 _, ?_⟩
  rw [mem_blk]
  intro a
  match a with
  | ⟨0, _⟩ =>
    show win1_6.index ⟨(i 0).val / 2000, hlt⟩ (0 : Fin 2) * 2000 ≤ (i 0).val
      ∧ (i 0).val < win1_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win1_6.index ⟨(i 0).val / 2000, hlt⟩ (1 : Fin 2) * 128 ≤ (i 1).val
      ∧ (i 1).val < win1_6.index ⟨(i 0).val / 2000, hlt⟩ (1 : Fin 2) * 128 + 128
    rw [e61]
    omega

/-- The region's output array ends at `outputLayer` of the arrays as the region finds them. -/
theorem final (c : Dev nD) :
    (dat1 V c).arrAt 6 cfg1.N
      = outputLayer (V c main_v14) (V c main_v27) (V c main_arg6) (V c main_arg7) (V c main_v30) (V c main_v35) :=
  (dat1 V c).arrAt_eq_of_cover 6
    (outputLayer (V c main_v14) (V c main_v27) (V c main_arg6) (V c main_arg7) (V c main_v30) (V c main_v35))
    (fun t _ => flushed_eq V c t) cover

end Cert.KernelIdeal.LastLayer

end
-- ==== Proof.LibHostScatter.lean ====
/-
  A host scatter whose body returns the update (a "set"), read at a position an update lands on.

  The host scatter is a left fold over the update's positions in row-major order; step `n` overwrites the
  operand at the position update `n` lands on, when it lands inside. If every update lands inside, at `g j`
  for update position `j`, and `g` is injective, then no later step touches what an earlier step wrote, and
  the result at `g j₀` is update `j₀`. The landing position is start plus window coordinate on every axis.
-/
import Idealize.ShloMosaic.PureOps.ShapeOps
import Idealize.ShloMosaic.PureOps.Dims

namespace Idealize.ShloMosaic.HostScatterSet

open Idealize.ShloMosaic

variable {ι κ α : Type} [DecidableEq κ]

/-- A fold of overwrites leaves a position none of them names as it was. -/
theorem foldl_set_miss (e : ι → κ) (v : ι → α) (k : κ) :
    ∀ (l : List ι) (x : κ → α), (∀ n ∈ l, e n ≠ k) →
      (l.foldl (fun r n => fun i' => if i' = e n then v n else r i') x) k = x k := by
  intro l
  induction l with
  | nil => intro x _; rfl
  | cons a t ih =>
    intro x h
    rw [List.foldl_cons, ih _ (fun n hn => h n (List.mem_cons_of_mem a hn))]
    have ha : k ≠ e a := fun hk => h a (List.mem_cons_self) hk.symm
    simp only [if_neg ha]

/-- A fold of overwrites at pairwise distinct positions leaves the position overwrite `n₀` names at its value. -/
theorem foldl_set_hit (e : ι → κ) (he : Function.Injective e) (v : ι → α) (n₀ : ι) :
    ∀ (l : List ι) (x : κ → α), n₀ ∈ l →
      (l.foldl (fun r n => fun i' => if i' = e n then v n else r i') x) (e n₀) = v n₀ := by
  intro l
  induction l with
  | nil => intro x h; cases h
  | cons a t ih =>
    intro x h
    rw [List.foldl_cons]
    by_cases ht : n₀ ∈ t
    · exact ih _ ht
    · have hna : n₀ = a := by
        rcases List.mem_cons.mp h with h' | h'
        · exact h'
        · exact absurd h' ht
      subst hna
      rw [foldl_set_miss e v (e n₀) t _ (fun n hn hen => ht (he hen ▸ hn))]
      simp only [if_pos]

end Idealize.ShloMosaic.HostScatterSet

namespace Idealize.ShloMosaic

/-- Update position `j` lands at `i` when on every axis the start plus the window coordinate is `i`'s. -/
theorem ScatterDims.resultIdx?_eq_some {s si u : Shape} (d : ScatterDims s si u) {w : Nat} (j : u.Idx) (idx : IVec si w)
    (i : s.Idx) (h : ∀ a, d.start j idx a + (d.window j a : Int) = ((i a).val : Int)) :
    d.resultIdx? j idx = some i := by
  unfold ScatterDims.resultIdx?
  have hc : ∀ a, 0 ≤ d.start j idx a + d.window j a ∧ d.start j idx a + d.window j a < s.size a := by
    intro a
    rw [h a]
    exact ⟨Int.natCast_nonneg _, by exact_mod_cast (i a).isLt⟩
  rw [dif_pos hc]
  congr 1
  funext a
  apply Fin.ext
  show (d.start j idx a + d.window j a).toNat = (i a).val
  rw [h a]
  exact Int.toNat_natCast _

/-- When every word of the scatter indices is zero, every window starts at the operand's origin. -/
theorem ScatterDims.start_eq_zero {s si u : Shape} (d : ScatterDims s si u) {w : Nat} (j : u.Idx) (idx : IVec si w)
    (h : ∀ k, idx k = 0#w) (a : Fin s.rank) : d.start j idx a = 0 := by
  unfold ScatterDims.start
  split
  · rw [h]; exact BitVec.toInt_zero
  · rfl

/-- A write-only host scatter all of whose updates land inside, at pairwise distinct positions `g j`: the result
    at `g j₀` is update `j₀`. -/
theorem Host.scatter_set_hit {s si u : Shape} {α : Type} {w : Nat} (d : ScatterDims s si u) (x : s.Idx → α)
    (idx : IVec si w) (upd : u.Idx → α) (g : u.Idx → s.Idx) (hg : ∀ j, d.resultIdx? j idx = some (g j))
    (hinj : Function.Injective g) (j₀ : u.Idx) :
    Host.scatter d (fun _ b => b) x idx upd (g j₀) = upd j₀ := by
  unfold Host.scatter
  simp only [hg]
  have h := HostScatterSet.foldl_set_hit (fun n : Fin u.numel => g (u.rowMajor.symm n))
    (fun a b hab => u.rowMajor.symm.injective (hinj hab)) (fun n => upd (u.rowMajor.symm n)) (u.rowMajor j₀)
    (List.finRange u.numel) x (List.mem_finRange _)
  simp only [Equiv.symm_apply_apply] at h
  exact h

end Idealize.ShloMosaic
-- ==== Proof.Pad.lean ====
/-
  The output projection padded to 128 columns, read where it matters.

  The kernel widens `W_out : [128, 1]` to a `[128, 128]` array of zeros whose column 0 is `W_out`, and
  `b_out : [1]` to a `[1, 128]` row of zeros whose entry 0 is `b_out`; both are host scatters that write the
  update at the origin. Only column 0 of the kernel's last product is kept, so only these entries matter:
  the padded weight at `(k, 0)` is `W_out (k, 0)` and the padded bias at `(0, 0)` is `b_out 0`.
-/
import proofs.«168921_j16844861734926_1_alg».proof.Proof.Gen.KernelIdeal
import proofs.«168921_j16844861734926_1_alg».proof.Proof.LibHostScatter
import Idealize.ShloMosaic.Lib.ValueIdx

noncomputable section

namespace Cert.KernelIdeal.Pad

open Cert.KernelIdeal Cert.KernelIdeal.Gen Idealize.ShloMosaic Idealize.ShloMosaic.ValueIdx

variable {α : Type}

/-- The one scatter index of the weight's padding: column 0. -/
abbrev colStart : IVec S1 32 := broadcastInDim S1 ![] bcast_S_S1 (constantI S_ 32 0#32)

/-- The index vector of the bias's padding: row 0, column 0. -/
abbrev originStart : IVec S2 32 := concatenate S2 0 [⟨S1, colStart⟩, ⟨S1, colStart⟩] concatenates_S1_S1_S2_d0

theorem colStart_zero : ∀ k, colStart k = 0#32 := fun _ => rfl

theorem originStart_zero : ∀ k, originStart k = 0#32 := by decide

/-- Where entry `j` of `W_out` lands in the padded weight: the same row, the same (only) column. -/
def landW (j : S128x1.Idx) : S128x128.Idx := ix2 (j 0) ⟨(j 1).val, lt_of_lt_of_le (j 1).isLt (by decide)⟩

theorem landW_injective : Function.Injective landW := fun j j' h => by
  funext a
  match a with
  | ⟨0, _⟩ => exact Fin.ext (congrArg Fin.val (congrFun h 0))
  | ⟨1, _⟩ =>
    have h1 := congrArg Fin.val (congrFun h 1)
    exact Fin.ext h1

/-- The padded weight's column 0 is `W_out`. -/
theorem padW_col0 (x : S128x128.Idx → α) (u : S128x1.Idx → α) (k : Fin 128) :
    Host.scatter scatter_S128x128_S1_S128x1_01_n_1_0 (fun _ b => b) x colStart u (ix2 k (0 : Fin 128))
      = u (ix2 k (0 : Fin 1)) := by
  have hg : ∀ j, scatter_S128x128_S1_S128x1_01_n_1_0.resultIdx? j colStart = some (landW j) := fun j =>
    ScatterDims.resultIdx?_eq_some _ j colStart (landW j) (fun a => by
      rw [ScatterDims.start_eq_zero _ j colStart colStart_zero a, zero_add]
      match a with
      | ⟨0, _⟩ => exact congrArg Nat.cast (show scatter_S128x128_S1_S128x1_01_n_1_0.window j 0 = (j 0).val from rfl)
      | ⟨1, _⟩ => exact congrArg Nat.cast (show scatter_S128x128_S1_S128x1_01_n_1_0.window j 1 = (j 1).val from rfl))
  have h := Host.scatter_set_hit scatter_S128x128_S1_S128x1_01_n_1_0 x colStart u landW hg landW_injective (ix2 k (0 : Fin 1))
  have e : landW (ix2 k (0 : Fin 1)) = ix2 k (0 : Fin 128) := by
    funext a
    match a with
    | ⟨0, _⟩ => rfl
    | ⟨1, _⟩ => rfl
  rw [e] at h
  exact h

/-- Where the one entry of `b_out` lands in the padded bias: row 0, its own position as the column. -/
def landB (j : S1.Idx) : S1x128.Idx := ix2 (0 : Fin 1) ⟨(j 0).val, lt_of_lt_of_le (j 0).isLt (by decide)⟩

theorem landB_injective : Function.Injective landB := fun j j' h => by
  funext a
  match a with
  | ⟨0, _⟩ =>
    have h1 := congrArg Fin.val (congrFun h 1)
    exact Fin.ext h1

/-- The padded bias's entry 0 is `b_out`. -/
theorem padB_origin (x : S1x128.Idx → α) (u : S1.Idx → α) :
    Host.scatter scatter_S1x128_S2_S1_0_0_01_0 (fun _ b => b) x originStart u (ix2 (0 : Fin 1) (0 : Fin 128))
      = u (ix1 (0 : Fin 1)) := by
  have hg : ∀ j, scatter_S1x128_S2_S1_0_0_01_0.resultIdx? j originStart = some (landB j) := fun j =>
    ScatterDims.resultIdx?_eq_some _ j originStart (landB j) (fun a => by
      rw [ScatterDims.start_eq_zero _ j originStart originStart_zero a, zero_add]
      match a with
      | ⟨0, _⟩ => exact congrArg Nat.cast (show scatter_S1x128_S2_S1_0_0_01_0.window j 0 = 0 from rfl)
      | ⟨1, _⟩ => exact congrArg Nat.cast (show scatter_S1x128_S2_S1_0_0_01_0.window j 1 = (j 0).val from rfl))
  have h := Host.scatter_set_hit scatter_S1x128_S2_S1_0_0_01_0 x originStart u landB hg landB_injective (ix1 (0 : Fin 1))
  have e : landB (ix1 (0 : Fin 1)) = ix2 (0 : Fin 1) (0 : Fin 128) := by
    funext a
    match a with
    | ⟨0, _⟩ => rfl
    | ⟨1, _⟩ => rfl
  rw [e] at h
  exact h

end Cert.KernelIdeal.Pad

end
-- ==== Proof.Hop.lean ====
/-
  One propagation hop, as one function.

  A hop takes node features `H` to `y[r] = Σ over edges e with row e = r of vals e · H[col e]`: a gather of one
  feature row per edge (a negative column number wrapped once by the node count), each row scaled by the edge's value,
  scatter-added by row number into zeros. Both programs spell a hop with these same operations in this order; it is
  kept as one function of the edge lists and the features and never opened.
-/
import proofs.«168921_j16844861734926_1_alg».proof.Proof.Gen.KernelIdeal

noncomputable section

namespace Cert.KernelIdeal.Hops

open Cert.KernelIdeal Cert.KernelIdeal.Gen Idealize.ShloMosaic

section
variable {F : FTy → Type} [FloatOps F]

/-- One propagation hop over the edge list `(rows, cols, vals)`. -/
def hop (rows cols : IVec S1600000 32) (vals : FVec F S1600000 .f32) (H : FVec F S100000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf
      (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 H
        (broadcastInDim S1600000x1 ![0] bcast_S1600000_S1600000x1_0
          (select
            (cmpi .slt cols (broadcastInDim S1600000 ![] bcast_S_S1600000 (constantI S_ 32 0#32)))
            (addi cols (broadcastInDim S1600000 ![] bcast_S_S1600000 (constantI S_ 32 100000#32)))
            cols))))

end

end Cert.KernelIdeal.Hops

end
-- ==== Proof.Hops.lean ====
/-
  The host stretch between the two regions.

  One propagation hop takes node features `H` to `y[r] = Σ over edges e with row e = r of vals e · H[col e]`: a
  gather of one feature row per edge (negative column numbers wrapped once by the node count), each scaled by the
  edge's value, scatter-added by row number into zeros. Both programs spell a hop with the same operations, so it
  is kept here as one function `hop` of the edge lists and the features, and never opened.
  The stretch applies `hop` to the first region's output and again to the result, and pads the output projection
  (Pad.lean). What it reads of the arguments is the launch memory: no operation or region before it writes one.
-/
import proofs.«168921_j16844861734926_1_alg».proof.Proof.Gen.KernelIdeal.Frame
import proofs.«168921_j16844861734926_1_alg».proof.Proof.Pad
import proofs.«168921_j16844861734926_1_alg».proof.Proof.Hop
import Idealize.ShloMosaic.Lib.StableHlo.Run
import Idealize.ShloMosaic.PureOps.Ideal

noncomputable section

namespace Cert.KernelIdeal.Hops

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The arguments at the stretch's entry are the launch memory -/

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)

/-! ## What the first region finds -/

theorem V1_arg0 (c : Dev nD) : V1 m ρ c main_arg0 = m ((c : Thread nD τ).loc main_arg0) := by
  show StableHlo.after hostOps0 (W0 m ρ c) (Proc.devRef .tc main_arg0) = _
  after_results

theorem V1_arg4 (c : Dev nD) : V1 m ρ c main_arg4 = m ((c : Thread nD τ).loc main_arg4) := by
  show StableHlo.after hostOps0 (W0 m ρ c) (Proc.devRef .tc main_arg4) = _
  after_results

/-- The bias row the first region reads is the bias vector as one row. -/
theorem V1_biasRow (c : Dev nD) :
    (V1 m ρ c main_v0 : S1x128.Idx → EReal) = shapeCast S1x128 (m ((c : Thread nD τ).loc main_arg5)) shapeCasts_S128_S1x128 := by
  show StableHlo.after hostOps0 (W0 m ρ c) (Proc.devRef .tc main_v0) = _
  after_results
  rfl

/-! ## What the second region finds

Stated first over any contents `W` at the stretch's entry, given what `W` holds at the buffers the stretch reads. -/

section
variable (W : Valuation τ sig (Elt Ideal))

theorem after_oneHop (a1 a2 : IVec S1600000 32) (a3 : FVec Ideal S1600000 .f32) (H : FVec Ideal S100000x128 .f32)
    (h1 : W (Proc.devRef .tc main_arg1) = a1) (h2 : W (Proc.devRef .tc main_arg2) = a2)
    (h3 : W (Proc.devRef .tc main_arg3) = a3) (hH : W (Proc.devRef .tc main_v1) = H) :
    (StableHlo.after hostOps1 W (Proc.devRef .tc main_v14) : S100000x128.Idx → EReal) = hop (F := Ideal) a1 a2 a3 H := by
  subst h1 h2 h3 hH
  generalize hX : hop (F := Ideal) (W (Proc.devRef .tc main_arg1)) (W (Proc.devRef .tc main_arg2)) (W (Proc.devRef .tc main_arg3)) (W (Proc.devRef .tc main_v1)) = X
  after_results
  exact hX

set_option maxHeartbeats 2000000 in
/-- The second hop's buffer, against any name `X` for two hops of `W`'s own contents. -/
theorem after_twoHops_named (X : S100000x128.Idx → EReal)
    (hX : X = hop (F := Ideal) (W (Proc.devRef .tc main_arg1)) (W (Proc.devRef .tc main_arg2)) (W (Proc.devRef .tc main_arg3)) (hop (F := Ideal) (W (Proc.devRef .tc main_arg1)) (W (Proc.devRef .tc main_arg2)) (W (Proc.devRef .tc main_arg3)) (W (Proc.devRef .tc main_v1)))) :
    (StableHlo.after hostOps1 W (Proc.devRef .tc main_v27) : S100000x128.Idx → EReal) = X := by
  after_results_simp
  exact hX.symm

theorem after_twoHops (a1 a2 : IVec S1600000 32) (a3 : FVec Ideal S1600000 .f32) (H : FVec Ideal S100000x128 .f32)
    (h1 : W (Proc.devRef .tc main_arg1) = a1) (h2 : W (Proc.devRef .tc main_arg2) = a2)
    (h3 : W (Proc.devRef .tc main_arg3) = a3) (hH : W (Proc.devRef .tc main_v1) = H) :
    (StableHlo.after hostOps1 W (Proc.devRef .tc main_v27) : S100000x128.Idx → EReal)
      = hop (F := Ideal) a1 a2 a3 (hop (F := Ideal) a1 a2 a3 H) := by
  subst h1 h2 h3 hH
  exact after_twoHops_named W _ rfl

theorem after_keeps (b : Ref sig .tc) (hb : b = main_arg6 ∨ b = main_arg7) :
    StableHlo.after hostOps1 W (Proc.devRef .tc b) = W (Proc.devRef .tc b) := by
  rcases hb with rfl | rfl
  · after_results
  · after_results

theorem after_padW (u : S128x1.Idx → EReal) (h8 : W (Proc.devRef .tc main_arg8) = u) :
    (StableHlo.after hostOps1 W (Proc.devRef .tc main_v30) : S128x128.Idx → EReal)
      = Host.scatter scatter_S128x128_S1_S128x1_01_n_1_0 (fun _ b => b)
          (broadcastInDim S128x128 ![] bcast_S_S128x128 (constant (F := Ideal) S_ .f32 0x00000000#32)) Pad.colStart u := by
  subst h8
  after_results

theorem after_padB (u : S1.Idx → EReal) (h9 : W (Proc.devRef .tc main_arg9) = u) :
    (StableHlo.after hostOps1 W (Proc.devRef .tc main_v35) : S1x128.Idx → EReal)
      = Host.scatter scatter_S1x128_S2_S1_0_0_01_0 (fun _ b => b)
          (broadcastInDim S1x128 ![] bcast_S_S1x128 (constant (F := Ideal) S_ .f32 0x00000000#32)) Pad.originStart u := by
  subst h9
  after_results

end

/-- The features after one hop. -/
theorem V3_oneHop (c : Dev nD) (H : FVec Ideal S100000x128 .f32) (hH : W2 m ρ c (Proc.devRef .tc main_v1) = H) :
    (V3 m ρ c main_v14 : S100000x128.Idx → EReal)
      = hop (F := Ideal) (m ((c : Thread nD τ).loc main_arg1)) (m ((c : Thread nD τ).loc main_arg2)) (m ((c : Thread nD τ).loc main_arg3)) H :=
  after_oneHop (W2 m ρ c) _ _ _ H (W2_arg1 m ρ c) (W2_arg2 m ρ c) (W2_arg3 m ρ c) hH

/-- The features after two hops. -/
theorem V3_twoHops (c : Dev nD) (H : FVec Ideal S100000x128 .f32) (hH : W2 m ρ c (Proc.devRef .tc main_v1) = H) :
    (V3 m ρ c main_v27 : S100000x128.Idx → EReal)
      = hop (F := Ideal) (m ((c : Thread nD τ).loc main_arg1)) (m ((c : Thread nD τ).loc main_arg2)) (m ((c : Thread nD τ).loc main_arg3))
          (hop (F := Ideal) (m ((c : Thread nD τ).loc main_arg1)) (m ((c : Thread nD τ).loc main_arg2)) (m ((c : Thread nD τ).loc main_arg3)) H) :=
  after_twoHops (W2 m ρ c) _ _ _ H (W2_arg1 m ρ c) (W2_arg2 m ρ c) (W2_arg3 m ρ c) hH

theorem V3_arg6 (c : Dev nD) : V3 m ρ c main_arg6 = m ((c : Thread nD τ).loc main_arg6) :=
  (after_keeps (W2 m ρ c) main_arg6 (Or.inl rfl)).trans (W2_arg6 m ρ c)

theorem V3_arg7 (c : Dev nD) : V3 m ρ c main_arg7 = m ((c : Thread nD τ).loc main_arg7) :=
  (after_keeps (W2 m ρ c) main_arg7 (Or.inr rfl)).trans (W2_arg7 m ρ c)

/-- The padded output projection. -/
theorem V3_padW (c : Dev nD) :
    (V3 m ρ c main_v30 : S128x128.Idx → EReal)
      = Host.scatter scatter_S128x128_S1_S128x1_01_n_1_0 (fun _ b => b)
          (broadcastInDim S128x128 ![] bcast_S_S128x128 (constant (F := Ideal) S_ .f32 0x00000000#32))
          Pad.colStart (m ((c : Thread nD τ).loc main_arg8)) :=
  after_padW (W2 m ρ c) _ (W2_arg8 m ρ c)

/-- The padded output bias. -/
theorem V3_padB (c : Dev nD) :
    (V3 m ρ c main_v35 : S1x128.Idx → EReal)
      = Host.scatter scatter_S1x128_S2_S1_0_0_01_0 (fun _ b => b)
          (broadcastInDim S1x128 ![] bcast_S_S1x128 (constant (F := Ideal) S_ .f32 0x00000000#32))
          Pad.originStart (m ((c : Thread nD τ).loc main_arg9)) :=
  after_padB (W2 m ρ c) _ (W2_arg9 m ρ c)

end Cert.KernelIdeal.Hops

end
-- ==== Proof.Result.lean ====
/-
  The kernel program's value as one term of its arguments.

  Reading the run's last contents back through the five stretches: the result is column 0 of the last region's
  output array; that array is `outputLayer` of what the region finds (LastLayer.lean); what it finds are one and two
  hops of the first region's output, the two weights, and the padded projection and bias (Hops.lean); the first
  region's output is `hiddenLayer` of the features, the first weight and the bias as one row (FirstLayer.lean).
-/
import proofs.«168921_j16844861734926_1_alg».proof.Proof.KernelRun
import proofs.«168921_j16844861734926_1_alg».proof.Proof.FirstLayer
import proofs.«168921_j16844861734926_1_alg».proof.Proof.LastLayer
import proofs.«168921_j16844861734926_1_alg».proof.Proof.Hops

noncomputable section

namespace Cert.KernelIdeal.Result

open Cert.KernelIdeal Cert.KernelIdeal.Gen Idealize.ShloMosaic Idealize.ShloMosaic.TcCoe Idealize.SL.Sem
open Idealize.ShloMosaic.StableHlo Cert.Layers

variable (m : (ℓ : Loc nD τ sig) → Buf (Elt Ideal) ℓ) (ρ : Dev nD → PrngReg)

/-- `hiddenLayer` of equal arrays. -/
theorem hiddenLayer_congr {X X' : Feat.Idx → EReal} {W W' : Wt.Idx → EReal} {b b' : Row.Idx → EReal}
    (hX : X = X') (hW : W = W') (hb : b = b') : hiddenLayer X W b = hiddenLayer X' W' b' := by
  subst hX hW hb; rfl

/-- `outputLayer` of equal arrays. -/
theorem outputLayer_congr {A A' B B' : Feat.Idx → EReal} {W₁ W₁' W₂ W₂' Wp Wp' : Wt.Idx → EReal} {bp bp' : Row.Idx → EReal}
    (hA : A = A') (hB : B = B') (h1 : W₁ = W₁') (h2 : W₂ = W₂') (hp : Wp = Wp') (hb : bp = bp') :
    outputLayer A B W₁ W₂ Wp bp = outputLayer A' B' W₁' W₂' Wp' bp' := by
  subst hA hB h1 h2 hp hb; rfl

/-- The first region leaves `hiddenLayer` of the launch arrays in its output. -/
theorem firstOut (c : Dev nD) :
    (W2 m ρ c (Proc.devRef .tc main_v1) : S100000x128.Idx → EReal) = (hiddenLayer (m ((c : Thread nD τ).loc main_arg0)) (m ((c : Thread nD τ).loc main_arg4)) (shapeCast S1x128 (m ((c : Thread nD τ).loc main_arg5)) shapeCasts_S128_S1x128)) :=
  ((W2_arr m ρ c 3).trans (FirstLayer.final (V1 m ρ) c)).trans
    (hiddenLayer_congr (Hops.V1_arg0 m ρ c) (Hops.V1_arg4 m ρ c) (Hops.V1_biasRow m ρ c))

/-- The last stretch is one slice: the result is column 0 of the second region's output array. -/
theorem lastRead (c : Dev nD) :
    (W5 m ρ c (Proc.devRef .tc main_v37) : S100000x1.Idx → EReal)
      = extractStridedSlice S100000x1 ![0, 0] (W4 m ρ c (Proc.devRef .tc main_v36)) slices_S100000x128_S100000x1_0_0 := by
  show StableHlo.after hostOps2 (W4 m ρ c) (Proc.devRef .tc main_v37) = _
  generalize hX : extractStridedSlice S100000x1 ![0, 0] (W4 m ρ c (Proc.devRef .tc main_v36)) slices_S100000x128_S100000x1_0_0 = X
  after_results
  exact hX

/-- The program's result: column 0 of `outputLayer` over one and two hops of `hiddenLayer`. -/
theorem value (c : Dev nD) :
    (W5 m ρ c (Proc.devRef .tc main_v37) : S100000x1.Idx → EReal)
      = extractStridedSlice S100000x1 ![0, 0]
          (outputLayer (Hops.hop (F := Ideal) (m ((c : Thread nD τ).loc main_arg1)) (m ((c : Thread nD τ).loc main_arg2)) (m ((c : Thread nD τ).loc main_arg3)) (hiddenLayer (m ((c : Thread nD τ).loc main_arg0)) (m ((c : Thread nD τ).loc main_arg4)) (shapeCast S1x128 (m ((c : Thread nD τ).loc main_arg5)) shapeCasts_S128_S1x128)))
            (Hops.hop (F := Ideal) (m ((c : Thread nD τ).loc main_arg1)) (m ((c : Thread nD τ).loc main_arg2)) (m ((c : Thread nD τ).loc main_arg3)) (Hops.hop (F := Ideal) (m ((c : Thread nD τ).loc main_arg1)) (m ((c : Thread nD τ).loc main_arg2)) (m ((c : Thread nD τ).loc main_arg3)) (hiddenLayer (m ((c : Thread nD τ).loc main_arg0)) (m ((c : Thread nD τ).loc main_arg4)) (shapeCast S1x128 (m ((c : Thread nD τ).loc main_arg5)) shapeCasts_S128_S1x128))))
            (m ((c : Thread nD τ).loc main_arg6)) (m ((c : Thread nD τ).loc main_arg7))
            (Host.scatter scatter_S128x128_S1_S128x1_01_n_1_0 (fun _ b => b)
          (broadcastInDim S128x128 ![] bcast_S_S128x128 (constant (F := Ideal) S_ .f32 0x00000000#32)) Pad.colStart (m ((c : Thread nD τ).loc main_arg8)))
            (Host.scatter scatter_S1x128_S2_S1_0_0_01_0 (fun _ b => b)
          (broadcastInDim S1x128 ![] bcast_S_S1x128 (constant (F := Ideal) S_ .f32 0x00000000#32)) Pad.originStart (m ((c : Thread nD τ).loc main_arg9))))
          slices_S100000x128_S100000x1_0_0 :=
  (lastRead m ρ c).trans
    (congrArg (fun P => extractStridedSlice S100000x1 ![0, 0] P slices_S100000x128_S100000x1_0_0)
      (((W4_arr m ρ c 6).trans (LastLayer.final (V3 m ρ) c)).trans
        (outputLayer_congr (Hops.V3_oneHop m ρ c _ (firstOut m ρ c)) (Hops.V3_twoHops m ρ c _ (firstOut m ρ c))
          (Hops.V3_arg6 m ρ c) (Hops.V3_arg7 m ρ c) (Hops.V3_padW m ρ c) (Hops.V3_padB m ρ c))))

end Cert.KernelIdeal.Result

end
-- ==== Proof.RefValue.lean ====
/-
  The reference read as the same layers.

  Its first stage, `relu (X · W_in + b_in)`, is `hiddenLayer` of the features, the weight and the bias as one row.
  Its two propagation stages are `hop` of the stage before, by unfolding: the operations are the kernel program's.
  Its result at `(r, 0)`, `relu (A · W₁ + B · W₂) · W_out + b_out`, is `outputLayer` at `(r, 0)` for ANY 128-column
  projection whose column 0 is `W_out` and any bias row whose entry 0 is `b_out`: a sum over the 128 hidden units of
  the same products, plus the same bias. No law of arithmetic is used beyond reading both sides at an index.
-/
import proofs.«168921_j16844861734926_1_alg».proof.Proof.Gen.ReferenceIdeal.Read
import proofs.«168921_j16844861734926_1_alg».proof.Proof.Spec
import proofs.«168921_j16844861734926_1_alg».proof.Proof.Hop
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.ValueIdx
open Cert.Layers

abbrev FeatBuf := (⟨S100000x128, .f32⟩ : BufTy).Contents (Elt Ideal)
abbrev EdgeIdx := (⟨S1600000, .i32⟩ : BufTy).Contents (Elt Ideal)
abbrev EdgeVal := (⟨S1600000, .f32⟩ : BufTy).Contents (Elt Ideal)
abbrev WtBuf := (⟨S128x128, .f32⟩ : BufTy).Contents (Elt Ideal)
abbrev BiasBuf := (⟨S128, .f32⟩ : BufTy).Contents (Elt Ideal)
abbrev ProjBuf := (⟨S128x1, .f32⟩ : BufTy).Contents (Elt Ideal)
abbrev OutBiasBuf := (⟨S1, .f32⟩ : BufTy).Contents (Elt Ideal)

/-- The reference's first stage is `hiddenLayer`, its bias read as one row. -/
theorem firstLayer_eq (x0 : FeatBuf) (x4 : WtBuf) (x5 : BiasBuf) (h : S128.ShapeCasts S1x128) :
    val_main_v4 (F := Ideal) x0 x4 x5 = hiddenLayer x0 x4 (shapeCast S1x128 x5 h) := by
  funext i
  obtain ⟨r, q, rfl⟩ : ∃ (r : Fin 100000) (q : Fin 128), i = ix2 r q := ⟨i 0, i 1, eq_ix2 i⟩
  rw [val_main_v4_apply, val_main_v3_apply, val_main_v0_apply, val_main_v2_apply, val_main_v1_apply,
    val_main_call0_v0_apply, val_main_call0_cst_apply]
  unfold hiddenLayer
  have el : ∀ k : Fin 128, lidx_main_v0 (ix2 r q) k = ix2 r k := fun k => funext fun a => by
    match a with
    | ⟨0, _⟩ => rfl
    | ⟨1, _⟩ => rfl
  have er : ∀ k : Fin 128, ridx_main_v0 (ix2 r q) k = ix2 k q := fun k => funext fun a => by
    match a with
    | ⟨0, _⟩ => rfl
    | ⟨1, _⟩ => rfl
  have eb : shapeCast S1x128 x5 h (ix2 (0 : Fin 1) q) = x5 (idx_main_v1 (idx_main_v2 (ix2 r q))) :=
    (shapeCast_a_1a_apply x5 h (0 : Fin 1) q).trans (congrArg x5 (funext fun a => by
      match a with
      | ⟨0, _⟩ => rfl))
  simp only [el, er]
  show max ((∑ k : Fin 128, x0 (ix2 r k) * x4 (ix2 k q)) + x5 (idx_main_v1 (idx_main_v2 (ix2 r q)))) zeroWord
    = max ((∑ k : Fin 128, x0 (ix2 r k) * x4 (ix2 k q)) + shapeCast S1x128 x5 h (ix2 (0 : Fin 1) q)) zeroWord
  rw [eb]

/-- The reference's first propagation stage is one hop of its first stage. -/
theorem oneHop_eq (x0 : FeatBuf) (x1 x2 : EdgeIdx) (x3 : EdgeVal) (x4 : WtBuf) (x5 : BiasBuf) :
    val_main_v17 (F := Ideal) x0 x1 x2 x3 x4 x5
      = Cert.KernelIdeal.Hops.hop (F := Ideal) x1 x2 x3 (val_main_v4 (F := Ideal) x0 x4 x5) := rfl

/-- The reference's second propagation stage is one hop of its first. -/
theorem twoHops_eq (x0 : FeatBuf) (x1 x2 : EdgeIdx) (x3 : EdgeVal) (x4 : WtBuf) (x5 : BiasBuf) :
    val_main_v30 (F := Ideal) x0 x1 x2 x3 x4 x5
      = Cert.KernelIdeal.Hops.hop (F := Ideal) x1 x2 x3 (val_main_v17 (F := Ideal) x0 x1 x2 x3 x4 x5) := rfl

/-- The reference's result at `(r, 0)` is `outputLayer` at `(r, 0)`, for a projection and a bias row that agree with
    `W_out` and `b_out` on column 0. -/
theorem result_apply (x0 : FeatBuf) (x1 x2 : EdgeIdx) (x3 : EdgeVal) (x4 : WtBuf) (x5 : BiasBuf) (x6 x7 : WtBuf)
    (x8 : ProjBuf) (x9 : OutBiasBuf) (Wp : Wt.Idx → EReal) (bp : Row.Idx → EReal)
    (hW : ∀ k : Fin 128, Wp (ix2 k (0 : Fin 128)) = x8 (ix2 k (0 : Fin 1)))
    (hb : bp (ix2 (0 : Fin 1) (0 : Fin 128)) = x9 (ix1 (0 : Fin 1))) (r : Fin 100000) :
    val_main_v38 (F := Ideal) x0 x1 x2 x3 x4 x5 x6 x7 x8 x9 (ix2 r (0 : Fin 1))
      = outputLayer (val_main_v17 (F := Ideal) x0 x1 x2 x3 x4 x5) (val_main_v30 (F := Ideal) x0 x1 x2 x3 x4 x5) x6 x7 Wp bp
          (ix2 r (0 : Fin 128)) := by
  rw [val_main_v38_apply, val_main_v35_apply, val_main_v37_apply, val_main_v36_apply]
  unfold outputLayer
  show (∑ k : Fin 128, val_main_v34 (F := Ideal) x0 x1 x2 x3 x4 x5 x6 x7 (lidx_main_v35 (ix2 r (0 : Fin 1)) k)
        * x8 (ridx_main_v35 (ix2 r (0 : Fin 1)) k))
      + x9 (idx_main_v36 (idx_main_v37 (ix2 r (0 : Fin 1))))
    = (∑ k : Fin 128,
        max ((∑ l : Fin 128, val_main_v17 (F := Ideal) x0 x1 x2 x3 x4 x5 (ix2 r l) * x6 (ix2 l k))
            + (∑ l : Fin 128, val_main_v30 (F := Ideal) x0 x1 x2 x3 x4 x5 (ix2 r l) * x7 (ix2 l k))) zeroWord
          * Wp (ix2 k (0 : Fin 128)))
      + bp (ix2 (0 : Fin 1) (0 : Fin 128))
  rw [hb]
  refine congrArg₂ (· + ·) (Finset.sum_congr rfl fun k _ => ?_) (congrArg x9 (funext fun a => by
    match a with
    | ⟨0, _⟩ => rfl))
  rw [hW k]
  have e1 : lidx_main_v35 (ix2 r (0 : Fin 1)) k = ix2 r k := funext fun a => by
    match a with
    | ⟨0, _⟩ => rfl
    | ⟨1, _⟩ => rfl
  have e2 : ridx_main_v35 (ix2 r (0 : Fin 1)) k = ix2 k (0 : Fin 1) := funext fun a => by
    match a with
    | ⟨0, _⟩ => rfl
    | ⟨1, _⟩ => rfl
  rw [e1, e2, val_main_v34_apply, val_main_v33_apply, val_main_v31_apply, val_main_v32_apply,
    val_main_call1_v0_apply, val_main_call1_cst_apply]
  have e3 : ∀ l : Fin 128, lidx_main_v31 (ix2 r k) l = ix2 r l := fun l => funext fun a => by
    match a with
    | ⟨0, _⟩ => rfl
    | ⟨1, _⟩ => rfl
  have e4 : ∀ l : Fin 128, ridx_main_v31 (ix2 r k) l = ix2 l k := fun l => funext fun a => by
    match a with
    | ⟨0, _⟩ => rfl
    | ⟨1, _⟩ => rfl
  have e5 : ∀ l : Fin 128, lidx_main_v32 (ix2 r k) l = ix2 r l := fun l => funext fun a => by
    match a with
    | ⟨0, _⟩ => rfl
    | ⟨1, _⟩ => rfl
  have e6 : ∀ l : Fin 128, ridx_main_v32 (ix2 r k) l = ix2 l k := fun l => funext fun a => by
    match a with
    | ⟨0, _⟩ => rfl
    | ⟨1, _⟩ => rfl
  simp only [e3, e4, e5, e6]
  rfl

end Cert.ReferenceIdeal.RefValue

end
-- ==== Proof.Bridge.lean ====
/-
  The two programs compute one function.

  At result index `(r, 0)` the kernel program's value is `outputLayer` at `(r, 0)` of its padded projection and
  bias (the slice keeps column 0), and the reference's is `outputLayer` at `(r, 0)` of any projection and bias that
  agree with `W_out`, `b_out` on column 0 — which the padded ones do (Pad.lean). The feature arrays on the two sides
  are the same hops of the same first layer.
-/
import proofs.«168921_j16844861734926_1_alg».proof.Proof.Result
import proofs.«168921_j16844861734926_1_alg».proof.Proof.RefValue
import proofs.«168921_j16844861734926_1_alg».proof.Proof.Pad

noncomputable section

namespace Cert.KernelIdeal.Bridge

open Cert.KernelIdeal Cert.KernelIdeal.Gen Idealize.ShloMosaic Idealize.ShloMosaic.TcCoe Idealize.SL.Sem
open Idealize.ShloMosaic.ValueIdx Cert.Layers

variable (m : (ℓ : Loc nD τ sig) → Buf (Elt Ideal) ℓ) (ρ : Dev nD → PrngReg)

/-- The kernel program's result is the reference's last stage of the same arguments. -/
theorem result_eq (c : Dev nD) :
    (W5 m ρ c (Proc.devRef .tc main_v37) : S100000x1.Idx → EReal)
      = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Result.value]
  funext i
  obtain ⟨r, u, rfl⟩ : ∃ (r : Fin 100000) (u : Fin 1), i = ix2 r u := ⟨i 0, i 1, eq_ix2 i⟩
  obtain rfl : u = 0 := Subsingleton.elim _ _
  rw [extractStridedSlice_apply ![0, 0] _ slices_S100000x128_S100000x1_0_0 (ix2 r (0 : Fin 1)) (ix2 r (0 : Fin 128))
    (fun a => by
      match a with
      | ⟨0, _⟩ => show r.val = 0 + r.val; omega
      | ⟨1, _⟩ => rfl)]
  rw [Cert.ReferenceIdeal.RefValue.result_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (Host.scatter scatter_S128x128_S1_S128x1_01_n_1_0 (fun _ b => b)
          (broadcastInDim S128x128 ![] bcast_S_S128x128 (constant (F := Ideal) S_ .f32 0x00000000#32)) Pad.colStart (m ((c : Thread nD τ).loc main_arg8)))
    (Host.scatter scatter_S1x128_S2_S1_0_0_01_0 (fun _ b => b)
          (broadcastInDim S1x128 ![] bcast_S_S1x128 (constant (F := Ideal) S_ .f32 0x00000000#32)) Pad.originStart (m ((c : Thread nD τ).loc main_arg9)))
    (fun k => Pad.padW_col0 _ _ k) (Pad.padB_origin _ _) r]
  rw [Cert.ReferenceIdeal.RefValue.twoHops_eq, Cert.ReferenceIdeal.RefValue.oneHop_eq,
    Cert.ReferenceIdeal.RefValue.firstLayer_eq _ _ _ shapeCasts_S128_S1x128]

end Cert.KernelIdeal.Bridge

end
-- ==== Proof.lean ====
/-
  A two-layer graph network: `relu (X · W_in + b_in)`, two sparse propagation hops over an edge list, then
  `relu (A · W₁ + A' · W₂) · W_out + b_out` into one column. The kernel program runs the two dense layers as
  row-blocked regions of 2000 rows each, the second with the output projection padded to 128 columns and column 0
  sliced off at the end; the reference runs whole-array products. Over the extended reals the two are one function:
  a block's rows depend only on the same rows of the inputs, so the blocks assemble to the whole-array layers
  (FirstLayer, LastLayer); the hops are spelt identically and are never opened (Hops); column 0 of the padded
  projection is `W_out` and entry 0 of the padded bias is `b_out` (Pad); so at every result index both sides are
  the same sums of the same products (RefValue, Bridge). No law beyond reading both sides at an index is used, so
  the finiteness of the inputs is never needed.

  The three frames: the two kernel programs' are the generated frame certificates; the reference's is its run with
  the result forgotten. The idealized kernel program is the kernel program's own text read over the extended reals:
  the ideal pass rewrote nothing, and `preserves` is `True`.
-/
import proofs.«168921_j16844861734926_1_alg».proof.Defs
import proofs.«168921_j16844861734926_1_alg».proof.Proof.Gen.Kernel
import proofs.«168921_j16844861734926_1_alg».proof.Proof.Gen.Kernel.Skeleton
import proofs.«168921_j16844861734926_1_alg».proof.Proof.Gen.Kernel.Launch
import proofs.«168921_j16844861734926_1_alg».proof.Proof.Gen.Kernel.Points
import proofs.«168921_j16844861734926_1_alg».proof.Proof.Gen.Kernel.Frame
import proofs.«168921_j16844861734926_1_alg».proof.Proof.Gen.KernelIdeal
import proofs.«168921_j16844861734926_1_alg».proof.Proof.Gen.KernelIdeal.Skeleton
import proofs.«168921_j16844861734926_1_alg».proof.Proof.Gen.KernelIdeal.Launch
import proofs.«168921_j16844861734926_1_alg».proof.Proof.Gen.KernelIdeal.Points
import proofs.«168921_j16844861734926_1_alg».proof.Proof.Gen.KernelIdeal.Frame
import proofs.«168921_j16844861734926_1_alg».proof.Proof.Gen.ReferenceIdeal
import proofs.«168921_j16844861734926_1_alg».proof.Proof.Gen.ReferenceIdeal.Run
import proofs.«168921_j16844861734926_1_alg».proof.Proof.Gen.ReferenceIdeal.Read
import proofs.«168921_j16844861734926_1_alg».proof.Proof.Gen.Pre_finite_inputs
import proofs.«168921_j16844861734926_1_alg».proof.Proof.KernelRun
import proofs.«168921_j16844861734926_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs run and end with the same result: the kernel program's
    last contents at its result buffer, which is the reference's last stage of the same arguments. -/
theorem algebraic : Cert.algebraic_KernelIdeal_ReferenceIdeal := by
  intro m ρ m' ρ' _ hagree
  refine ⟨fun c => Cert.KernelIdeal.Gen.W5 m ρ c (Proc.devRef .tc Cert.KernelIdeal.main_v37),
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v38_eq, a0, a1, a2, a3, a4, a5, a6, a7, a8, a9]
  exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
